-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S4000x64 : Shape := ⟨2, ![4000, 64]⟩
abbrev S4000x128 : Shape := ⟨2, ![4000, 128]⟩
abbrev S1600000x128 : Shape := ⟨2, ![1600000, 128]⟩

abbrev nBuf : Space → Nat
  | .hbm => 51
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S64x128, .bf16⟩
  | .hbm, ⟨15, _⟩ => ⟨S128x128, .bf16⟩
  | .hbm, ⟨16, _⟩ => ⟨S128x128, .bf16⟩
  | .hbm, ⟨17, _⟩ => ⟨S128x64, .bf16⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x128, .bf16⟩
  | .local _ .vmem, ⟨13, _⟩ => ⟨S4000x128, .bf16⟩
  | .local _ .vmem, ⟨14, _⟩ => ⟨S128x128, .bf16⟩
  | .local _ .vmem, ⟨15, _⟩ => ⟨S1x128, .f32⟩
  | .local _ .vmem, ⟨16, _⟩ => ⟨S128x64, .bf16⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S128_S1x128 : S128.ShapeCasts S1x128
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x64, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelFoldRun.lean ====
/-
  The kernel program's run, with every buffer named.

  The program is a line of host operations, a first convolution kernel over 25 row blocks, a second line of host
  operations and a second kernel over 25 row blocks. Its run is a fold through these four segments: the contents
  after a host line are that line's operations applied to the contents before it, and the contents after a kernel
  are the contents before it with each of the kernel's arrays replaced by what its write-backs leave. Every weakly
  fair execution terminates, without a fault, with every buffer that outlives the kernels at the last stage of this
  fold. The statement keeps the whole fold in its post, so that the result buffer can be read off it.
-/
import proofs.«176087_j88424786690458_2_alg».proof.Proof.Gen.KernelIdeal.Frame

set_option maxRecDepth 16384

noncomputable section

namespace Cert.KernelIdeal.FoldRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to a
    kernel ends at the last stage of the fold through the four segments. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result buffer and at the ten argument buffers: the result ends at what the second
    kernel's write-backs leave in its output array, the arguments end as launched. -/
theorem run_result : θ_run defs (onTc (τ := τ) (main (F := F))) ⟨m, fun _ => 0, ρ⟩ (fun r => ∀ c : Dev nD,
      r.2.mem ((c.tc : Thread nD τ).loc main_v34) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v34 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_fold m ρ)

end Cert.KernelIdeal.FoldRun

end
-- ==== Proof.GinSpec.lean ====
/-
  One graph-isomorphism convolution as a function of whole arrays, on the extended reals.

  A convolution takes the neighbour sums `agg` and the node features `h` (both `[N, A]`), adds them, and sends every
  row through a two-layer perceptron: entry `(p, k)` of the hidden layer is `max (Σ_j (agg + h)(p, j) · Wa (j, k) + ba k) 0`
  and entry `(p, q)` of the output is `Σ_k hidden (p, k) · Wb (k, q) + bb q`, clipped at zero again after the first
  convolution and left as it is after the second. Every entry of a layer depends on ONE row of its input: that is why
  a kernel may compute the layer block of rows by block of rows, and it is the only law the certificate uses. No entry
  is evaluated: sums and products are the extended reals' own, and the zero is the word both programs print.

  The biases are taken as functions of the column, so that a bias kept as a vector `[B]` and one kept as a row
  `[1, B]` are the same argument.
-/
import Idealize.ShloMosaic.PureOps.Ideal.Laws
import Idealize.ShloMosaic.Lib.ValueIdx

open scoped BigOperators

noncomputable section

namespace Cert.Gin

open Idealize.ShloMosaic Idealize.ShloMosaic.ValueIdx

variable {M N A B C : ℕ}

/-- The zero both programs clip against: what the all-zero f32 word denotes. -/
abbrev zero : EReal := Ideal.ofBits .f32 0x00000000#32

/-- Entry `(p, q)` of `z · W + b`: the sum over the shared axis of the products, plus the bias of column `q`. -/
def affine (z : (⟨2, ![N, A]⟩ : Shape).Idx → EReal) (W : (⟨2, ![A, B]⟩ : Shape).Idx → EReal) (b : Fin B → EReal)
    (p : Fin N) (q : Fin B) : EReal :=
  (∑ k : Fin A, z (ix2 p k) * W (ix2 k q)) + b q

/-- A layer clipped below at zero, as an array. -/
def clipped (z : (⟨2, ![N, A]⟩ : Shape).Idx → EReal) (W : (⟨2, ![A, B]⟩ : Shape).Idx → EReal) (b : Fin B → EReal) :
    (⟨2, ![N, B]⟩ : Shape).Idx → EReal :=
  fun i => max (affine z W b (i 0) (i 1)) zero

/-- A layer left as it is, as an array. -/
def plain (z : (⟨2, ![N, A]⟩ : Shape).Idx → EReal) (W : (⟨2, ![A, B]⟩ : Shape).Idx → EReal) (b : Fin B → EReal) :
    (⟨2, ![N, B]⟩ : Shape).Idx → EReal :=
  fun i => affine z W b (i 0) (i 1)

/-- The entrywise sum of two arrays. -/
def plus (u v : (⟨2, ![N, A]⟩ : Shape).Idx → EReal) : (⟨2, ![N, A]⟩ : Shape).Idx → EReal := fun i => u i + v i

theorem clipped_ix2 (z : (⟨2, ![N, A]⟩ : Shape).Idx → EReal) (W : (⟨2, ![A, B]⟩ : Shape).Idx → EReal) (b : Fin B → EReal)
    (p : Fin N) (q : Fin B) : clipped z W b (ix2 p q) = max (affine z W b p q) zero := rfl

theorem plain_ix2 (z : (⟨2, ![N, A]⟩ : Shape).Idx → EReal) (W : (⟨2, ![A, B]⟩ : Shape).Idx → EReal) (b : Fin B → EReal)
    (p : Fin N) (q : Fin B) : plain z W b (ix2 p q) = affine z W b p q := rfl

/-- The first convolution: both layers clipped. -/
def conv1 (agg h : (⟨2, ![N, A]⟩ : Shape).Idx → EReal) (Wa : (⟨2, ![A, B]⟩ : Shape).Idx → EReal) (ba : Fin B → EReal)
    (Wb : (⟨2, ![B, C]⟩ : Shape).Idx → EReal) (bb : Fin C → EReal) : (⟨2, ![N, C]⟩ : Shape).Idx → EReal :=
  clipped (clipped (plus agg h) Wa ba) Wb bb

/-- The second convolution: the hidden layer clipped, the output left as it is. -/
def conv2 (agg h : (⟨2, ![N, A]⟩ : Shape).Idx → EReal) (Wa : (⟨2, ![A, B]⟩ : Shape).Idx → EReal) (ba : Fin B → EReal)
    (Wb : (⟨2, ![B, C]⟩ : Shape).Idx → EReal) (bb : Fin C → EReal) : (⟨2, ![N, C]⟩ : Shape).Idx → EReal :=
  plain (clipped (plus agg h) Wa ba) Wb bb

/-- ROW LOCALITY. Entry `(r, q)` of a layer of an array `z` of `M` rows is entry `(R, q)` of the layer of an array
    `z'` of `N` rows as soon as row `r` of `z` is row `R` of `z'`, column `q` of the two weight matrices agree and so do
    the two biases at `q`: the two sums have the same terms. -/
theorem affine_row (z : (⟨2, ![M, A]⟩ : Shape).Idx → EReal) (z' : (⟨2, ![N, A]⟩ : Shape).Idx → EReal)
    (W W' : (⟨2, ![A, B]⟩ : Shape).Idx → EReal) (b b' : Fin B → EReal) (r : Fin M) (R : Fin N) (q : Fin B)
    (h : ∀ k : Fin A, z (ix2 r k) = z' (ix2 R k)) (hW : ∀ k : Fin A, W (ix2 k q) = W' (ix2 k q)) (hb : b q = b' q) :
    affine z W b r q = affine z' W' b' R q := by
  unfold affine
  rw [hb]
  exact congrArg (· + b' q) (Finset.sum_congr rfl fun k _ => by rw [h k, hW k])

/-- Row `r` of the first convolution of a block of rows is row `R` of the first convolution of the whole arrays, when
    the block's row `r` is the arrays' row `R` and the weights and biases agree entry by entry. -/
theorem conv1_row (x0 x1 : (⟨2, ![M, A]⟩ : Shape).Idx → EReal) (agg h : (⟨2, ![N, A]⟩ : Shape).Idx → EReal)
    (Wa Wa' : (⟨2, ![A, B]⟩ : Shape).Idx → EReal) (ba ba' : Fin B → EReal) (Wb Wb' : (⟨2, ![B, C]⟩ : Shape).Idx → EReal)
    (bb bb' : Fin C → EReal) (r : Fin M) (R : Fin N) (q : Fin C)
    (h0 : ∀ j : Fin A, x0 (ix2 r j) = agg (ix2 R j)) (h1 : ∀ j : Fin A, x1 (ix2 r j) = h (ix2 R j))
    (hWa : ∀ (j : Fin A) (k : Fin B), Wa (ix2 j k) = Wa' (ix2 j k)) (hba : ∀ k : Fin B, ba k = ba' k)
    (hWb : ∀ (k : Fin B) (q : Fin C), Wb (ix2 k q) = Wb' (ix2 k q)) (hbb : ∀ q : Fin C, bb q = bb' q) :
    conv1 x0 x1 Wa ba Wb bb (ix2 r q) = conv1 agg h Wa' ba' Wb' bb' (ix2 R q) := by
  unfold conv1
  rw [clipped_ix2, clipped_ix2]
  refine congrArg (max · zero) (affine_row _ _ Wb Wb' bb bb' r R q (fun k => ?_) (fun k => hWb k q) (hbb q))
  rw [clipped_ix2, clipped_ix2]
  refine congrArg (max · zero) (affine_row _ _ Wa Wa' ba ba' r R k (fun j => ?_) (fun j => hWa j k) (hba k))
  show x0 (ix2 r j) + x1 (ix2 r j) = agg (ix2 R j) + h (ix2 R j)
  rw [h0 j, h1 j]

/-- The same for the second convolution. -/
theorem conv2_row (x0 x1 : (⟨2, ![M, A]⟩ : Shape).Idx → EReal) (agg h : (⟨2, ![N, A]⟩ : Shape).Idx → EReal)
    (Wa Wa' : (⟨2, ![A, B]⟩ : Shape).Idx → EReal) (ba ba' : Fin B → EReal) (Wb Wb' : (⟨2, ![B, C]⟩ : Shape).Idx → EReal)
    (bb bb' : Fin C → EReal) (r : Fin M) (R : Fin N) (q : Fin C)
    (h0 : ∀ j : Fin A, x0 (ix2 r j) = agg (ix2 R j)) (h1 : ∀ j : Fin A, x1 (ix2 r j) = h (ix2 R j))
    (hWa : ∀ (j : Fin A) (k : Fin B), Wa (ix2 j k) = Wa' (ix2 j k)) (hba : ∀ k : Fin B, ba k = ba' k)
    (hWb : ∀ (k : Fin B) (q : Fin C), Wb (ix2 k q) = Wb' (ix2 k q)) (hbb : ∀ q : Fin C, bb q = bb' q) :
    conv2 x0 x1 Wa ba Wb bb (ix2 r q) = conv2 agg h Wa' ba' Wb' bb' (ix2 R q) := by
  unfold conv2
  rw [plain_ix2, plain_ix2]
  refine affine_row _ _ Wb Wb' bb bb' r R q (fun k => ?_) (fun k => hWb k q) (hbb q)
  rw [clipped_ix2, clipped_ix2]
  refine congrArg (max · zero) (affine_row _ _ Wa Wa' ba ba' r R k (fun j => ?_) (fun j => hWa j k) (hba k))
  show x0 (ix2 r j) + x1 (ix2 r j) = agg (ix2 R j) + h (ix2 R j)
  rw [h0 j, h1 j]

end Cert.Gin

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibLinearPre.lean ====
/-
  A kernel's linear layer whose weights arrive already narrowed, read at an index.

  A kernel that keeps its weights in bf16 outside the body narrows only the activations inside it: the body computes
  the product of the narrowed block `z` and the bf16 weights `w` on the matrix unit into a zero accumulator and adds the
  bias kept as a row `[1, N]`. On the extended reals a narrowing is the identity, so at `(p, q)` this is
  `Σ_k z (p, k) · w (k, q) + b (0, q)`.
-/
import Idealize.ShloMosaic.PureOps.Ideal.Laws
import Idealize.ShloMosaic.Lib.ValueIdx
import Idealize.ShloMosaic.Lib.ValueLayout
import Idealize.ShloMosaic.Lib.Pipeline.Value
import proofs.«176087_j88424786690458_2_alg».proof.Proof.LibDot

open scoped BigOperators

noncomputable section

namespace Cert.LibLinearPre

open Idealize.ShloMosaic Idealize.ShloMosaic.ValueIdx

variable {M K N : ℕ}

/-- The product of the block `z`, narrowed to bf16 on the way in, and the weights `w`, held in bf16 and re-cast to their
    own shape, into a zero accumulator, plus the bias row spread over the rows: at `(p, q)` it is
    `∑ k, z (p, k) · w (k, q) + b (0, q)`. -/
theorem kernel_linear_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (z : FVec Ideal ⟨2, ![M, K]⟩ .f32) (w : FVec Ideal ⟨2, ![K, N]⟩ .bf16) (b : FVec Ideal ⟨2, ![1, N]⟩ .f32)
    (hx : FTy.bf16.bits < FTy.f32.bits) (cw : (⟨2, ![K, N]⟩ : Shape).ShapeCasts ⟨2, ![K, N]⟩)
    (c : (⟨2, ![1, N]⟩ : Shape).ShapeCasts ⟨2, ![1, N]⟩)
    (bc : (⟨2, ![1, N]⟩ : Shape).Broadcasts ⟨2, ![M, N]⟩) (p : Fin M) (q : Fin N) :
    addf (matmul D none (truncf .bf16 z hx) (shapeCast ⟨2, ![K, N]⟩ w cw) (constant ⟨2, ![M, N]⟩ .f32 0x00000000#32))
        (broadcastTo ⟨2, ![M, N]⟩ (shapeCast ⟨2, ![1, N]⟩ b c) bc) (ix2 p q)
      = (∑ k : Fin K, z (ix2 p k) * w (ix2 k q)) + b (ix2 (0 : Fin 1) q) := by
  rw [addf_apply, broadcastTo_1b_ab_apply, shapeCast_self, shapeCast_self]
  refine congrArg (· + b (ix2 (0 : Fin 1) q)) ?_
  refine (Ideal.matmul_constant_zero_apply D none _ _ (ix2 p q)).trans ?_
  exact PlainDot.sum_eq D h1 h2 h3 h4 h5 h6 (fun i => z i) (fun i => w i) p q

end Cert.LibLinearPre

end
-- ==== Proof.KernelBlock.lean ====
/-
  What one grid point of each kernel computes, entry by entry.

  A point of the first kernel loads a block of 4000 rows of the neighbour sums and of the node features, the two
  weight matrices (held in bf16) and the two biases (held as rows `[1, B]`), and stores
  `max (max ((agg + h) · Wa + ba) 0 · Wb + bb) 0` of them; a point of the second kernel stores the same without the outer
  clipping. The roundings to bf16 on the way into the matrix unit and on the way out are the identity on the extended
  reals, and a product into a zero accumulator is the plain sum of products. So the stored block is the convolution
  of the loaded blocks; and since every entry of a layer depends on one row of its input, it is row `R` of the
  convolution of the WHOLE arrays whenever the loaded rows are the arrays' row `R`.
-/
import proofs.«176087_j88424786690458_2_alg».proof.Proof.Gen.KernelIdeal.Skeleton
import proofs.«176087_j88424786690458_2_alg».proof.Proof.GinSpec
import proofs.«176087_j88424786690458_2_alg».proof.Proof.LibLinearPre

open scoped BigOperators

noncomputable section

namespace Cert.KernelIdeal.Block

open Cert.KernelIdeal Cert.KernelIdeal.Gen Idealize.ShloMosaic Idealize.ShloMosaic.ValueIdx

/-- The first kernel's stored block is the first convolution of its loaded blocks. -/
theorem stored0_eq (x0 x1 : FVec Ideal S4000x64 .f32) (w1 : FVec Ideal S64x128 .bf16) (b1 : FVec Ideal S1x128 .f32)
    (w2 : FVec Ideal S128x128 .bf16) (b2 : FVec Ideal S1x128 .f32) (r : Fin 4000) (q : Fin 128) :
    k0_pay1 (F := Ideal) x0 x1 w1 b1 w2 b2 (ix2 r q)
      = Cert.Gin.conv1 x0 x1 w1 (fun k : Fin 128 => b1 (ix2 (0 : Fin 1) k)) w2 (fun k : Fin 128 => b2 (ix2 (0 : Fin 1) k)) (ix2 r q) := by
  unfold k0_pay1 Cert.Gin.conv1
  rw [Cert.Gin.clipped_ix2]
  refine congrArg (max · Cert.Gin.zero) ?_
  refine (Cert.LibLinearPre.kernel_linear_apply dot_S4000x128_S128x128_S4000x128_1_0_0_1_n_n rfl rfl rfl rfl rfl rfl
    _ w2 b2 bitsLt_bf16_f32 shapeCasts_S128x128_S128x128 shapeCasts_S1x128_S1x128 broadcasts_S1x128_S4000x128 r q).trans ?_
  unfold Cert.Gin.affine
  refine congrArg (· + b2 (ix2 (0 : Fin 1) q)) (Finset.sum_congr rfl fun k _ => ?_)
  refine congrArg (· * w2 (ix2 k q)) ?_
  rw [Cert.Gin.clipped_ix2]
  refine congrArg (max · Cert.Gin.zero) ?_
  refine (Cert.LibLinearPre.kernel_linear_apply dot_S4000x64_S64x128_S4000x128_1_0_0_1_n_n rfl rfl rfl rfl rfl rfl
    _ w1 b1 bitsLt_bf16_f32 shapeCasts_S64x128_S64x128 shapeCasts_S1x128_S1x128 broadcasts_S1x128_S4000x128 r k).trans ?_
  unfold Cert.Gin.affine
  refine congrArg (· + b1 (ix2 (0 : Fin 1) k)) (Finset.sum_congr rfl fun j _ => ?_)
  refine congrArg (· * w1 (ix2 j k)) ?_
  show shapeCast S4000x64 x0 shapeCasts_S4000x64_S4000x64 (ix2 r j) + x1 (ix2 r j) = x0 (ix2 r j) + x1 (ix2 r j)
  rw [shapeCast_self]

/-- The second kernel's stored block is the second convolution of its loaded blocks (the node features arrive in
    bf16 and are widened, which changes nothing on the extended reals). -/
theorem stored1_eq (x0 : FVec Ideal S4000x128 .f32) (x1 : FVec Ideal S4000x128 .bf16) (w1 : FVec Ideal S128x128 .bf16)
    (b1 : FVec Ideal S1x128 .f32) (w2 : FVec Ideal S128x64 .bf16) (b2 : FVec Ideal S1x64 .f32) (r : Fin 4000) (q : Fin 64) :
    k1_pay1 (F := Ideal) x0 x1 w1 b1 w2 b2 (ix2 r q)
      = Cert.Gin.conv2 x0 x1 w1 (fun k : Fin 128 => b1 (ix2 (0 : Fin 1) k)) w2 (fun k : Fin 64 => b2 (ix2 (0 : Fin 1) k)) (ix2 r q) := by
  unfold k1_pay1 Cert.Gin.conv2
  rw [Cert.Gin.plain_ix2]
  refine (Cert.LibLinearPre.kernel_linear_apply dot_S4000x128_S128x64_S4000x64_1_0_0_1_n_n rfl rfl rfl rfl rfl rfl
    _ w2 b2 bitsLt_bf16_f32 shapeCasts_S128x64_S128x64 shapeCasts_S1x64_S1x64 broadcasts_S1x64_S4000x64 r q).trans ?_
  unfold Cert.Gin.affine
  refine congrArg (· + b2 (ix2 (0 : Fin 1) q)) (Finset.sum_congr rfl fun k _ => ?_)
  refine congrArg (· * w2 (ix2 k q)) ?_
  rw [Cert.Gin.clipped_ix2]
  refine congrArg (max · Cert.Gin.zero) ?_
  refine (Cert.LibLinearPre.kernel_linear_apply dot_S4000x128_S128x128_S4000x128_1_0_0_1_n_n rfl rfl rfl rfl rfl rfl
    _ w1 b1 bitsLt_bf16_f32 shapeCasts_S128x128_S128x128 shapeCasts_S1x128_S1x128 broadcasts_S1x128_S4000x128 r k).trans ?_
  unfold Cert.Gin.affine
  refine congrArg (· + b1 (ix2 (0 : Fin 1) k)) (Finset.sum_congr rfl fun j _ => ?_)
  refine congrArg (· * w1 (ix2 j k)) ?_
  show shapeCast S4000x128 x0 shapeCasts_S4000x128_S4000x128 (ix2 r j)
      + extf .f32 (shapeCast S4000x128 x1 shapeCasts_S4000x128_S4000x128) bitsLt_bf16_f32 (ix2 r j) = x0 (ix2 r j) + x1 (ix2 r j)
  rw [shapeCast_self, extf_apply, shapeCast_self]

/-- A point of the first kernel whose loaded rows `r` are row `R` of the whole arrays, and whose weights and bias rows are
    the whole weights and biases, stores row `R` of the first convolution of the whole arrays. -/
theorem stored0_row (x0 x1 : FVec Ideal S4000x64 .f32) (w1 : FVec Ideal S64x128 .bf16) (b1 : FVec Ideal S1x128 .f32)
    (w2 : FVec Ideal S128x128 .bf16) (b2 : FVec Ideal S1x128 .f32)
    (agg h : (⟨2, ![100000, 64]⟩ : Shape).Idx → EReal) (Wa : (⟨2, ![64, 128]⟩ : Shape).Idx → EReal)
    (ba : (⟨2, ![1, 128]⟩ : Shape).Idx → EReal) (Wb : (⟨2, ![128, 128]⟩ : Shape).Idx → EReal)
    (bb : (⟨2, ![1, 128]⟩ : Shape).Idx → EReal) (r : Fin 4000) (R : Fin 100000) (q : Fin 128)
    (h0 : ∀ j : Fin 64, x0 (ix2 r j) = agg (ix2 R j)) (h1 : ∀ j : Fin 64, x1 (ix2 r j) = h (ix2 R j))
    (hWa : ∀ (j : Fin 64) (k : Fin 128), w1 (ix2 j k) = Wa (ix2 j k))
    (hba : ∀ k : Fin 128, b1 (ix2 (0 : Fin 1) k) = ba (ix2 (0 : Fin 1) k))
    (hWb : ∀ (k : Fin 128) (q : Fin 128), w2 (ix2 k q) = Wb (ix2 k q))
    (hbb : ∀ q : Fin 128, b2 (ix2 (0 : Fin 1) q) = bb (ix2 (0 : Fin 1) q)) :
    k0_pay1 (F := Ideal) x0 x1 w1 b1 w2 b2 (ix2 r q)
      = Cert.Gin.conv1 agg h Wa (fun k : Fin 128 => ba (ix2 (0 : Fin 1) k)) Wb (fun k : Fin 128 => bb (ix2 (0 : Fin 1) k)) (ix2 R q) :=
  (stored0_eq x0 x1 w1 b1 w2 b2 r q).trans
    (Cert.Gin.conv1_row x0 x1 agg h w1 Wa _ _ w2 Wb _ _ r R q h0 h1 hWa hba hWb hbb)

/-- The same for a point of the second kernel. -/
theorem stored1_row (x0 : FVec Ideal S4000x128 .f32) (x1 : FVec Ideal S4000x128 .bf16) (w1 : FVec Ideal S128x128 .bf16)
    (b1 : FVec Ideal S1x128 .f32) (w2 : FVec Ideal S128x64 .bf16) (b2 : FVec Ideal S1x64 .f32)
    (agg h : (⟨2, ![100000, 128]⟩ : Shape).Idx → EReal) (Wa : (⟨2, ![128, 128]⟩ : Shape).Idx → EReal)
    (ba : (⟨2, ![1, 128]⟩ : Shape).Idx → EReal) (Wb : (⟨2, ![128, 64]⟩ : Shape).Idx → EReal)
    (bb : (⟨2, ![1, 64]⟩ : Shape).Idx → EReal) (r : Fin 4000) (R : Fin 100000) (q : Fin 64)
    (h0 : ∀ j : Fin 128, x0 (ix2 r j) = agg (ix2 R j)) (h1 : ∀ j : Fin 128, x1 (ix2 r j) = h (ix2 R j))
    (hWa : ∀ (j : Fin 128) (k : Fin 128), w1 (ix2 j k) = Wa (ix2 j k))
    (hba : ∀ k : Fin 128, b1 (ix2 (0 : Fin 1) k) = ba (ix2 (0 : Fin 1) k))
    (hWb : ∀ (k : Fin 128) (q : Fin 64), w2 (ix2 k q) = Wb (ix2 k q))
    (hbb : ∀ q : Fin 64, b2 (ix2 (0 : Fin 1) q) = bb (ix2 (0 : Fin 1) q)) :
    k1_pay1 (F := Ideal) x0 x1 w1 b1 w2 b2 (ix2 r q)
      = Cert.Gin.conv2 agg h Wa (fun k : Fin 128 => ba (ix2 (0 : Fin 1) k)) Wb (fun k : Fin 64 => bb (ix2 (0 : Fin 1) k)) (ix2 R q) :=
  (stored1_eq x0 x1 w1 b1 w2 b2 r q).trans
    (Cert.Gin.conv2_row x0 x1 agg h w1 Wa _ _ w2 Wb _ _ r R q h0 h1 hWa hba hWb hbb)

end Cert.KernelIdeal.Block

end
-- ==== Proof.Conv1Array.lean ====
/-
  The first kernel's output array after its 25 grid points.

  Point `t` of the first kernel works on rows `4000·t … 4000·t + 3999` of the neighbour sums and of the node
  features, on the whole weight matrices and on the whole bias rows, and writes back rows `4000·t … 4000·t + 3999`
  of its output. What it writes back is therefore block `t` of ONE array, the first convolution of the whole arrays
  as the kernel finds them; the 25 blocks tile the 100000 rows (row `i` lies in block `i / 4000`), so after the last
  point the output array IS that convolution.
-/
import proofs.«176087_j88424786690458_2_alg».proof.Proof.Gen.KernelIdeal.Frame
import proofs.«176087_j88424786690458_2_alg».proof.Proof.KernelBlock

set_option maxRecDepth 16384

noncomputable section

namespace Cert.KernelIdeal.Conv1Array

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The first convolution of the whole arrays as the kernel finds them: the neighbour sums, the node features, the two
    weight matrices and the two bias rows. -/
def whole (c : Dev nD) : S100000x128.Idx → EReal :=
  Cert.Gin.conv1 (N := 100000) (A := 64) (B := 128) (C := 128) (V c main_v21) (V c main_arg0) (V c main_v4)
    (fun k : Fin 128 => V c main_v8 (ix2 (0 : Fin 1) k)) (V c main_v5) (fun k : Fin 128 => V c main_v9 (ix2 (0 : Fin 1) k))

/-- The printed index maps over the grid: the two row-blocked inputs and the output are at block `t` of the rows, the
    weights and biases at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the convolution of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S4000x64) origin, View.ld_unit_zero (S := S64x128) origin,
    View.ld_unit_zero (S := S1x128) origin, View.ld_unit_zero (S := S128x128) origin]
  have ht : t.val < 25 := lt_of_lt_of_eq t.isLt N_0
  obtain ⟨e00, e01, e10, e11, e20, e21, e30, e31, e40, e41, e50, e51, e60, e61⟩ := index_maps t
  funext j
  obtain ⟨r, q, rfl⟩ : ∃ (r : Fin 4000) (q : Fin 128), j = ix2 r q := ⟨j 0, j 1, eq_ix2 j⟩
  have hr : r.val < 4000 := r.isLt
  have hR : t.val * 4000 + r.val < 100000 := by omega
  have hemb : ((cfg0.win 6).blk t).view.emb (ix2 r q) = ix2 (⟨t.val * 4000 + r.val, hR⟩ : Fin 100000) q := by
    funext a; apply Fin.ext
    match a with
    | ⟨0, _⟩ => show win0_6.index t (0 : Fin 2) * 4000 + 1 * r.val = t.val * 4000 + r.val; omega
    | ⟨1, _⟩ => show win0_6.index t (1 : Fin 2) * 128 + 1 * q.val = q.val; omega
  show k0_pay1 (iblk0 V c 0 t) (iblk0 V c 1 t) (iblk0 V c 2 t) (iblk0 V c 3 t) (iblk0 V c 4 t) (iblk0 V c 5 t) (ix2 r q)
    = whole V c (((cfg0.win 6).blk t).view.emb (ix2 r q))
  rw [hemb]
  unfold whole
  refine Cert.KernelIdeal.Block.stored0_row (iblk0 V c 0 t) (iblk0 V c 1 t) (iblk0 V c 2 t) (iblk0 V c 3 t)
    (iblk0 V c 4 t) (iblk0 V c 5 t) (V c main_v21) (V c main_arg0) (V c main_v4) (V c main_v8) (V c main_v5) (V c main_v9)
    r ⟨t.val * 4000 + r.val, hR⟩ q ?_ ?_ ?_ ?_ ?_ ?_
  · intro j'
    show V c main_v21 (((cfg0.win 0).blk t).view.emb (ix2 r j')) = V c main_v21 (ix2 (⟨t.val * 4000 + r.val, hR⟩ : Fin 100000) j')
    refine congrArg (V c main_v21) ?_
    funext a; apply Fin.ext
    match a with
    | ⟨0, _⟩ => show win0_0.index t (0 : Fin 2) * 4000 + 1 * r.val = t.val * 4000 + r.val; omega
    | ⟨1, _⟩ => show win0_0.index t (1 : Fin 2) * 64 + 1 * j'.val = j'.val; omega
  · intro j'
    show V c main_arg0 (((cfg0.win 1).blk t).view.emb (ix2 r j')) = V c main_arg0 (ix2 (⟨t.val * 4000 + r.val, hR⟩ : Fin 100000) j')
    refine congrArg (V c main_arg0) ?_
    funext a; apply Fin.ext
    match a with
    | ⟨0, _⟩ => show win0_1.index t (0 : Fin 2) * 4000 + 1 * r.val = t.val * 4000 + r.val; omega
    | ⟨1, _⟩ => show win0_1.index t (1 : Fin 2) * 64 + 1 * j'.val = j'.val; omega
  · intro j' k
    show V c main_v4 (((cfg0.win 2).blk t).view.emb (ix2 j' k)) = V c main_v4 (ix2 j' k)
    refine congrArg (V c main_v4) ?_
    funext a; apply Fin.ext
    match a with
    | ⟨0, _⟩ => show win0_2.index t (0 : Fin 2) * 64 + 1 * j'.val = j'.val; omega
    | ⟨1, _⟩ => show win0_2.index t (1 : Fin 2) * 128 + 1 * k.val = k.val; omega
  · intro k
    show V c main_v8 (((cfg0.win 3).blk t).view.emb (ix2 (0 : Fin 1) k)) = V c main_v8 (ix2 (0 : Fin 1) k)
    refine congrArg (V c main_v8) ?_
    funext a; apply Fin.ext
    match a with
    | ⟨0, _⟩ => show win0_3.index t (0 : Fin 2) * 1 + 1 * 0 = 0; omega
    | ⟨1, _⟩ => show win0_3.index t (1 : Fin 2) * 128 + 1 * k.val = k.val; omega
  · intro k q'
    show V c main_v5 (((cfg0.win 4).blk t).view.emb (ix2 k q')) = V c main_v5 (ix2 k q')
    refine congrArg (V c main_v5) ?_
    funext a; apply Fin.ext
    match a with
    | ⟨0, _⟩ => show win0_4.index t (0 : Fin 2) * 128 + 1 * k.val = k.val; omega
    | ⟨1, _⟩ => show win0_4.index t (1 : Fin 2) * 128 + 1 * q'.val = q'.val; omega
  · intro q'
    show V c main_v9 (((cfg0.win 5).blk t).view.emb (ix2 (0 : Fin 1) q')) = V c main_v9 (ix2 (0 : Fin 1) q')
    refine congrArg (V c main_v9) ?_
    funext a; apply Fin.ext
    match a with
    | ⟨0, _⟩ => show win0_5.index t (0 : Fin 2) * 1 + 1 * 0 = 0; omega
    | ⟨1, _⟩ => show win0_5.index t (1 : Fin 2) * 128 + 1 * q'.val = q'.val; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v22).slice (win0_6.rect t)).set ↔ _
  rw [View.set_slice_whole, Rect.mem_set_unit]
  exact Iff.rfl

/-- Every index of the output array is in the block of the point that its row, divided by 4000, names. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 25 := N_0
  have hlt : (i 0).val / 4000 < cfg0.N := by show (i 0).val / 4000 < grid0.N; omega
  obtain ⟨_, _, _, _, _, _, _, _, _, _, _, _, e60, e61⟩ := index_maps ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    rw [e61]; omega

/-- THE OUTPUT ARRAY after the kernel: the first convolution of the whole arrays as the kernel found them. -/
theorem final (c : Dev nD) : (dat0 V c).arrAt 6 cfg0.N = whole V c :=
  (dat0 V c).arrAt_eq_of_cover 6 (whole V c) (fun t _ => flushed_eq V c t) cover

end Cert.KernelIdeal.Conv1Array

end
-- ==== Proof.Conv2Array.lean ====
/-
  The second kernel's output array after its 25 grid points.

  Point `t` of the second kernel works on rows `4000·t … 4000·t + 3999` of the second neighbour sums and of the first
  convolution's output, on the whole weight matrices and on the whole bias rows, and writes back the same rows of
  its output: block `t` of the second convolution of the whole arrays as the kernel finds them. The 25 blocks tile the
  100000 rows, so after the last point the output array IS that convolution.
-/
import proofs.«176087_j88424786690458_2_alg».proof.Proof.Gen.KernelIdeal.Frame
import proofs.«176087_j88424786690458_2_alg».proof.Proof.KernelBlock

set_option maxRecDepth 16384

noncomputable section

namespace Cert.KernelIdeal.Conv2Array

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The second convolution of the whole arrays as the kernel finds them: the neighbour sums, the first convolution's
    output, the two weight matrices and the two bias rows. -/
def whole (c : Dev nD) : S100000x64.Idx → EReal :=
  Cert.Gin.conv2 (N := 100000) (A := 128) (B := 128) (C := 64) (V c main_v33) (V c main_v22) (V c main_v6)
    (fun k : Fin 128 => V c main_v10 (ix2 (0 : Fin 1) k)) (V c main_v7) (fun k : Fin 64 => V c main_v11 (ix2 (0 : Fin 1) k))

/-- The printed index maps over the grid: the two row-blocked inputs and the output are at block `t` of the rows, the
    weights and biases at their one block. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the second convolution of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin]
  simp only [View.ld_unit_zero (S := S4000x128) origin, View.ld_unit_zero (S := S128x128) origin,
    View.ld_unit_zero (S := S1x128) origin, View.ld_unit_zero (S := S128x64) origin, View.ld_unit_zero (S := S1x64) origin]
  have ht : t.val < 25 := lt_of_lt_of_eq t.isLt N_1
  obtain ⟨e00, e01, e10, e11, e20, e21, e30, e31, e40, e41, e50, e51, e60, e61⟩ := index_maps t
  funext j
  obtain ⟨r, q, rfl⟩ : ∃ (r : Fin 4000) (q : Fin 64), j = ix2 r q := ⟨j 0, j 1, eq_ix2 j⟩
  have hr : r.val < 4000 := r.isLt
  have hR : t.val * 4000 + r.val < 100000 := by omega
  have hemb : ((cfg1.win 6).blk t).view.emb (ix2 r q) = ix2 (⟨t.val * 4000 + r.val, hR⟩ : Fin 100000) q := by
    funext a; apply Fin.ext
    match a with
    | ⟨0, _⟩ => show win1_6.index t (0 : Fin 2) * 4000 + 1 * r.val = t.val * 4000 + r.val; omega
    | ⟨1, _⟩ => show win1_6.index t (1 : Fin 2) * 64 + 1 * q.val = q.val; omega
  show k1_pay1 (iblk1 V c 0 t) (iblk1 V c 1 t) (iblk1 V c 2 t) (iblk1 V c 3 t) (iblk1 V c 4 t) (iblk1 V c 5 t) (ix2 r q)
    = whole V c (((cfg1.win 6).blk t).view.emb (ix2 r q))
  rw [hemb]
  unfold whole
  refine Cert.KernelIdeal.Block.stored1_row (iblk1 V c 0 t) (iblk1 V c 1 t) (iblk1 V c 2 t) (iblk1 V c 3 t)
    (iblk1 V c 4 t) (iblk1 V c 5 t) (V c main_v33) (V c main_v22) (V c main_v6) (V c main_v10) (V c main_v7) (V c main_v11)
    r ⟨t.val * 4000 + r.val, hR⟩ q ?_ ?_ ?_ ?_ ?_ ?_
  · intro j'
    show V c main_v33 (((cfg1.win 0).blk t).view.emb (ix2 r j')) = V c main_v33 (ix2 (⟨t.val * 4000 + r.val, hR⟩ : Fin 100000) j')
    refine congrArg (V c main_v33) ?_
    funext a; apply Fin.ext
    match a with
    | ⟨0, _⟩ => show win1_0.index t (0 : Fin 2) * 4000 + 1 * r.val = t.val * 4000 + r.val; omega
    | ⟨1, _⟩ => show win1_0.index t (1 : Fin 2) * 128 + 1 * j'.val = j'.val; omega
  · intro j'
    show V c main_v22 (((cfg1.win 1).blk t).view.emb (ix2 r j')) = V c main_v22 (ix2 (⟨t.val * 4000 + r.val, hR⟩ : Fin 100000) j')
    refine congrArg (V c main_v22) ?_
    funext a; apply Fin.ext
    match a with
    | ⟨0, _⟩ => show win1_1.index t (0 : Fin 2) * 4000 + 1 * r.val = t.val * 4000 + r.val; omega
    | ⟨1, _⟩ => show win1_1.index t (1 : Fin 2) * 128 + 1 * j'.val = j'.val; omega
  · intro j' k
    show V c main_v6 (((cfg1.win 2).blk t).view.emb (ix2 j' k)) = V c main_v6 (ix2 j' k)
    refine congrArg (V c main_v6) ?_
    funext a; apply Fin.ext
    match a with
    | ⟨0, _⟩ => show win1_2.index t (0 : Fin 2) * 128 + 1 * j'.val = j'.val; omega
    | ⟨1, _⟩ => show win1_2.index t (1 : Fin 2) * 128 + 1 * k.val = k.val; omega
  · intro k
    show V c main_v10 (((cfg1.win 3).blk t).view.emb (ix2 (0 : Fin 1) k)) = V c main_v10 (ix2 (0 : Fin 1) k)
    refine congrArg (V c main_v10) ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · intro k q'
    show V c main_v7 (((cfg1.win 4).blk t).view.emb (ix2 k q')) = V c main_v7 (ix2 k q')
    refine congrArg (V c main_v7) ?_
    funext a; apply Fin.ext
    match a with
    | ⟨0, _⟩ => show win1_4.index t (0 : Fin 2) * 128 + 1 * k.val = k.val; omega
    | ⟨1, _⟩ => show win1_4.index t (1 : Fin 2) * 64 + 1 * q'.val = q'.val; omega
  · intro q'
    show V c main_v11 (((cfg1.win 5).blk t).view.emb (ix2 (0 : Fin 1) q')) = V c main_v11 (ix2 (0 : Fin 1) q')
    refine congrArg (V c main_v11) ?_
    funext a; apply Fin.ext
    match a with
    | ⟨0, _⟩ => show win1_5.index t (0 : Fin 2) * 1 + 1 * 0 = 0; omega
    | ⟨1, _⟩ => show win1_5.index t (1 : Fin 2) * 64 + 1 * q'.val = q'.val; omega

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v34).slice (win1_6.rect t)).set ↔ _
  rw [View.set_slice_whole, Rect.mem_set_unit]
  exact Iff.rfl

/-- Every index of the output array is in the block of the point that its row, divided by 4000, names. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 25 := N_1
  have hlt : (i 0).val / 4000 < cfg1.N := by show (i 0).val / 4000 < grid1.N; omega
  obtain ⟨_, _, _, _, _, _, _, _, _, _, _, _, e60, e61⟩ := index_maps ⟨(i 0).val / 4000, hlt⟩
  refine ⟨⟨(i 0).val / 4000, hlt⟩, flush1_6 _, ?_⟩
  rw [mem_blk]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, hlt⟩ (1 : Fin 2) * 64 ≤ (i 1).val
      ∧ (i 1).val < win1_6.index ⟨(i 0).val / 4000, hlt⟩ (1 : Fin 2) * 64 + 64
    rw [e61]; omega

/-- THE OUTPUT ARRAY after the kernel: the second convolution of the whole arrays as the kernel found them. -/
theorem final (c : Dev nD) : (dat1 V c).arrAt 6 cfg1.N = whole V c :=
  (dat1 V c).arrAt_eq_of_cover 6 (whole V c) (fun t _ => flushed_eq V c t) cover

end Cert.KernelIdeal.Conv2Array

end
-- ==== Proof.HostStretches.lean ====
/-
  What the two kernels find in their arrays: the host operations before each of them, read back.

  Before the first kernel the host splits the edge list into its source and destination rows, wraps negative source
  entries by the number of nodes, gathers the source rows of the node features and adds each gathered row into the
  row its destination names, starting from zeros: the neighbour sums. It also narrows the four weight matrices to
  bf16 and re-casts the four biases `[B]` as rows `[1, B]`. Between the kernels it forms the neighbour sums of the first
  kernel's output in the same way (gathering in bf16 and widening before the sum).

  The gather and the sum over destinations are the same operations in the reference, applied there to the same
  operands; they are named here (`neighbourSum64`, `neighbourSum128`) and never opened.
-/
import proofs.«176087_j88424786690458_2_alg».proof.Proof.Gen.KernelIdeal.Frame
import Idealize.ShloMosaic.PureOps.Ideal

set_option maxRecDepth 16384

noncomputable section

namespace Cert.KernelIdeal.HostStretches

open Cert.KernelIdeal Cert.KernelIdeal.Gen
open Idealize.ShloMosaic Idealize.ShloMosaic.TcCoe Idealize.ShloMosaic.StableHlo Idealize.SL.Sem

/-- The source row of the edge list, as a vector. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination row of the edge list, as a vector. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The gather's index column: the source entries, a negative one raised by the number of nodes. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The scatter's index column: the destination entries. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0 (dstRow e)

/-- The neighbour sums of a `[100000, 64]` array along the edge list `e`. -/
def neighbourSum64 (h : (⟨S100000x64, .f32⟩ : BufTy).Contents (Elt Ideal)) (e : (⟨S2x1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dstCol e)
    (Host.gather gather_S100000x64_S1600000x1_S1600000x64_1_0_n_n_0_1_164 h (srcCol e))

/-- The neighbour sums of a `[100000, 128]` array held in bf16 along the edge list `e`: gathered, widened, summed. -/
def neighbourSum128 (h : (⟨S100000x128, .bf16⟩ : BufTy).Contents (Elt Ideal)) (e : (⟨S2x1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstCol e)
    (extf (F := Ideal) .f32 (Host.gather gather_S100000x128_S1600000x1_S1600000x128_1_0_n_n_0_1_1128 h (srcCol e)) bitsLt_bf16_f32)

variable (m : (ℓ : Loc nD τ sig) → Buf (Elt Ideal) ℓ) (ρ : Dev nD → PrngReg)

/-! ## Before the first kernel -/

theorem first_agg (c : Dev nD) :
    V1 m ρ c main_v21 = neighbourSum64 (m ((c : Thread nD τ).loc main_arg0)) (m ((c : Thread nD τ).loc main_arg1)) := by
  show StableHlo.after hostOps0 (W0 m ρ c) (Proc.devRef .tc main_v21) = _
  after_results_simp <;> rfl

theorem first_x (c : Dev nD) : V1 m ρ c main_arg0 = m ((c : Thread nD τ).loc main_arg0) := by
  show StableHlo.after hostOps0 (W0 m ρ c) (Proc.devRef .tc main_arg0) = _
  after_results_simp <;> rfl

theorem first_Wa (c : Dev nD) : V1 m ρ c main_v4 = truncf (F := Ideal) .bf16 (m ((c : Thread nD τ).loc main_arg2)) bitsLt_bf16_f32 := by
  show StableHlo.after hostOps0 (W0 m ρ c) (Proc.devRef .tc main_v4) = _
  after_results_simp <;> rfl

theorem first_ba (c : Dev nD) : V1 m ρ c main_v8 = shapeCast _ (m ((c : Thread nD τ).loc main_arg3)) shapeCasts_S128_S1x128 := by
  show StableHlo.after hostOps0 (W0 m ρ c) (Proc.devRef .tc main_v8) = _
  after_results_simp <;> rfl

theorem first_Wb (c : Dev nD) : V1 m ρ c main_v5 = truncf (F := Ideal) .bf16 (m ((c : Thread nD τ).loc main_arg4)) bitsLt_bf16_f32 := by
  show StableHlo.after hostOps0 (W0 m ρ c) (Proc.devRef .tc main_v5) = _
  after_results_simp <;> rfl

theorem first_bb (c : Dev nD) : V1 m ρ c main_v9 = shapeCast _ (m ((c : Thread nD τ).loc main_arg5)) shapeCasts_S128_S1x128 := by
  show StableHlo.after hostOps0 (W0 m ρ c) (Proc.devRef .tc main_v9) = _
  after_results_simp <;> rfl

/-! ## Between the kernels: what the first stretch left, carried through the first kernel -/

theorem kept_src (c : Dev nD) : W2 m ρ c (Proc.devRef .tc main_v1) = srcRow (m ((c : Thread nD τ).loc main_arg1)) := by
  refine (W2_of_ne m ρ c main_v1 (by decide)).trans ?_
  show StableHlo.after hostOps0 (W0 m ρ c) (Proc.devRef .tc main_v1) = _
  after_results_simp <;> rfl

theorem kept_dst (c : Dev nD) : W2 m ρ c (Proc.devRef .tc main_v3) = dstRow (m ((c : Thread nD τ).loc main_arg1)) := by
  refine (W2_of_ne m ρ c main_v3 (by decide)).trans ?_
  show StableHlo.after hostOps0 (W0 m ρ c) (Proc.devRef .tc main_v3) = _
  after_results_simp <;> rfl

theorem kept_Wa (c : Dev nD) : W2 m ρ c (Proc.devRef .tc main_v6) = truncf (F := Ideal) .bf16 (m ((c : Thread nD τ).loc main_arg6)) bitsLt_bf16_f32 := by
  refine (W2_of_ne m ρ c main_v6 (by decide)).trans ?_
  show StableHlo.after hostOps0 (W0 m ρ c) (Proc.devRef .tc main_v6) = _
  after_results_simp <;> rfl

theorem kept_ba (c : Dev nD) : W2 m ρ c (Proc.devRef .tc main_v10) = shapeCast _ (m ((c : Thread nD τ).loc main_arg7)) shapeCasts_S128_S1x128 := by
  refine (W2_of_ne m ρ c main_v10 (by decide)).trans ?_
  show StableHlo.after hostOps0 (W0 m ρ c) (Proc.devRef .tc main_v10) = _
  after_results_simp <;> rfl

theorem kept_Wb (c : Dev nD) : W2 m ρ c (Proc.devRef .tc main_v7) = truncf (F := Ideal) .bf16 (m ((c : Thread nD τ).loc main_arg8)) bitsLt_bf16_f32 := by
  refine (W2_of_ne m ρ c main_v7 (by decide)).trans ?_
  show StableHlo.after hostOps0 (W0 m ρ c) (Proc.devRef .tc main_v7) = _
  after_results_simp <;> rfl

theorem kept_bb (c : Dev nD) : W2 m ρ c (Proc.devRef .tc main_v11) = shapeCast _ (m ((c : Thread nD τ).loc main_arg9)) shapeCasts_S64_S1x64 := by
  refine (W2_of_ne m ρ c main_v11 (by decide)).trans ?_
  show StableHlo.after hostOps0 (W0 m ρ c) (Proc.devRef .tc main_v11) = _
  after_results_simp <;> rfl

/-! ## Before the second kernel -/

theorem second_agg (c : Dev nD) :
    V3 m ρ c main_v33 = neighbourSum128 (W2 m ρ c (Proc.devRef .tc main_v22)) (m ((c : Thread nD τ).loc main_arg1)) := by
  show StableHlo.after hostOps1 (W2 m ρ c) (Proc.devRef .tc main_v33) = _
  after_results_simp
  rw [kept_src m ρ c, kept_dst m ρ c]
  rfl

theorem second_h (c : Dev nD) : V3 m ρ c main_v22 = W2 m ρ c (Proc.devRef .tc main_v22) := by
  show StableHlo.after hostOps1 (W2 m ρ c) (Proc.devRef .tc main_v22) = _
  after_results_simp

theorem second_Wa (c : Dev nD) : V3 m ρ c main_v6 = truncf (F := Ideal) .bf16 (m ((c : Thread nD τ).loc main_arg6)) bitsLt_bf16_f32 := by
  show StableHlo.after hostOps1 (W2 m ρ c) (Proc.devRef .tc main_v6) = _
  after_results_simp
  exact kept_Wa m ρ c

theorem second_ba (c : Dev nD) : V3 m ρ c main_v10 = shapeCast _ (m ((c : Thread nD τ).loc main_arg7)) shapeCasts_S128_S1x128 := by
  show StableHlo.after hostOps1 (W2 m ρ c) (Proc.devRef .tc main_v10) = _
  after_results_simp
  exact kept_ba m ρ c

theorem second_Wb (c : Dev nD) : V3 m ρ c main_v7 = truncf (F := Ideal) .bf16 (m ((c : Thread nD τ).loc main_arg8)) bitsLt_bf16_f32 := by
  show StableHlo.after hostOps1 (W2 m ρ c) (Proc.devRef .tc main_v7) = _
  after_results_simp
  exact kept_Wb m ρ c

theorem second_bb (c : Dev nD) : V3 m ρ c main_v11 = shapeCast _ (m ((c : Thread nD τ).loc main_arg9)) shapeCasts_S64_S1x64 := by
  show StableHlo.after hostOps1 (W2 m ρ c) (Proc.devRef .tc main_v11) = _
  after_results_simp
  exact kept_bb m ρ c

end Cert.KernelIdeal.HostStretches

end
-- ==== Proof.Network.lean ====
/-
  The whole network as one function of the arguments.

  The node features `x` go through the first convolution with their neighbour sums `S1 x`; the result `h` goes through
  the second convolution with its neighbour sums `S2 h`. The two neighbour-sum operators are parameters: both programs
  form them with the same gather and the same sum over destinations, and the certificate never looks inside.
-/
import proofs.«176087_j88424786690458_2_alg».proof.Proof.GinSpec

noncomputable section

namespace Cert.Gin

open Idealize.ShloMosaic Idealize.ShloMosaic.ValueIdx

variable {N A B C D E : ℕ}

/-- Two convolutions in a row: `conv2 (S2 h) h …` of `h = conv1 (S1 x) x …`. -/
def network (S1 : ((⟨2, ![N, A]⟩ : Shape).Idx → EReal) → (⟨2, ![N, A]⟩ : Shape).Idx → EReal)
    (S2 : ((⟨2, ![N, C]⟩ : Shape).Idx → EReal) → (⟨2, ![N, C]⟩ : Shape).Idx → EReal)
    (x : (⟨2, ![N, A]⟩ : Shape).Idx → EReal)
    (W1a : (⟨2, ![A, B]⟩ : Shape).Idx → EReal) (b1a : Fin B → EReal)
    (W1b : (⟨2, ![B, C]⟩ : Shape).Idx → EReal) (b1b : Fin C → EReal)
    (W2a : (⟨2, ![C, D]⟩ : Shape).Idx → EReal) (b2a : Fin D → EReal)
    (W2b : (⟨2, ![D, E]⟩ : Shape).Idx → EReal) (b2b : Fin E → EReal) : (⟨2, ![N, E]⟩ : Shape).Idx → EReal :=
  conv2 (S2 (conv1 (S1 x) x W1a b1a W1b b1b)) (conv1 (S1 x) x W1a b1a W1b b1b) W2a b2a W2b b2b

end Cert.Gin

end
-- ==== Proof.KernelValue.lean ====
/-
  The kernel program's result as a function of its arguments.

  The result buffer ends at what the second kernel's write-backs leave; that is the second convolution of the arrays
  the second kernel finds; those are the neighbour sums of the first kernel's output, that output, and the narrowed
  weights and the bias rows; the first kernel's output is the first convolution of the arrays it finds, which are the
  neighbour sums of the node features, the node features, and the narrowed weights and the bias rows. Put together:
  the network of the arguments.
-/
import proofs.«176087_j88424786690458_2_alg».proof.Proof.KernelFoldRun
import proofs.«176087_j88424786690458_2_alg».proof.Proof.Conv1Array
import proofs.«176087_j88424786690458_2_alg».proof.Proof.Conv2Array
import proofs.«176087_j88424786690458_2_alg».proof.Proof.HostStretches
import proofs.«176087_j88424786690458_2_alg».proof.Proof.Network

set_option maxRecDepth 16384

noncomputable section

namespace Cert.KernelIdeal.KernelValue

open Cert.KernelIdeal Cert.KernelIdeal.Gen Cert.KernelIdeal.HostStretches
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first kernel's output array, from the arguments: the first convolution of the node features with their
    neighbour sums. -/
def firstOut (c : Dev nD) : S100000x128.Idx → EReal :=
  Cert.Gin.conv1 (N := 100000) (A := 64) (B := 128) (C := 128)
    (neighbourSum64 (m ((c : Thread nD τ).loc main_arg0)) (m ((c : Thread nD τ).loc main_arg1))) (m ((c : Thread nD τ).loc main_arg0))
    (truncf (F := Ideal) .bf16 (m ((c : Thread nD τ).loc main_arg2)) bitsLt_bf16_f32)
    (fun k : Fin 128 => shapeCast _ (m ((c : Thread nD τ).loc main_arg3)) shapeCasts_S128_S1x128 (ix2 (0 : Fin 1) k))
    (truncf (F := Ideal) .bf16 (m ((c : Thread nD τ).loc main_arg4)) bitsLt_bf16_f32)
    (fun k : Fin 128 => shapeCast _ (m ((c : Thread nD τ).loc main_arg5)) shapeCasts_S128_S1x128 (ix2 (0 : Fin 1) k))

include ρ in
/-- After the first kernel its output buffer holds `firstOut`. -/
theorem first_out (c : Dev nD) : W2 m ρ c (Proc.devRef .tc main_v22) = firstOut m c := by
  refine (W2_arr m ρ c 6).trans ?_
  refine (Cert.KernelIdeal.Conv1Array.final (V1 m ρ) c).trans ?_
  unfold Cert.KernelIdeal.Conv1Array.whole firstOut
  rw [first_agg m ρ c, first_x m ρ c, first_Wa m ρ c, first_ba m ρ c, first_Wb m ρ c, first_bb m ρ c]

/-- The result, from the arguments: the second convolution of `firstOut` with its neighbour sums. -/
def out (c : Dev nD) : S100000x64.Idx → EReal :=
  Cert.Gin.conv2 (N := 100000) (A := 128) (B := 128) (C := 64)
    (neighbourSum128 (firstOut m c) (m ((c : Thread nD τ).loc main_arg1))) (firstOut m c)
    (truncf (F := Ideal) .bf16 (m ((c : Thread nD τ).loc main_arg6)) bitsLt_bf16_f32)
    (fun k : Fin 128 => shapeCast _ (m ((c : Thread nD τ).loc main_arg7)) shapeCasts_S128_S1x128 (ix2 (0 : Fin 1) k))
    (truncf (F := Ideal) .bf16 (m ((c : Thread nD τ).loc main_arg8)) bitsLt_bf16_f32)
    (fun k : Fin 64 => shapeCast _ (m ((c : Thread nD τ).loc main_arg9)) shapeCasts_S64_S1x64 (ix2 (0 : Fin 1) k))

include ρ in
/-- What the second kernel's write-backs leave in the result array is `out`. -/
theorem result_eq (c : Dev nD) : (dat1 (V3 m ρ) c).arrAt 6 cfg1.N = out m c := by
  refine (Cert.KernelIdeal.Conv2Array.final (V3 m ρ) c).trans ?_
  unfold Cert.KernelIdeal.Conv2Array.whole out
  rw [second_agg m ρ c, second_h m ρ c, second_Wa m ρ c, second_ba m ρ c, second_Wb m ρ c, second_bb m ρ c,
    first_out m ρ c]

/-- THE KERNEL PROGRAM'S RUN: every weakly fair execution terminates, nothing faulting, with the result buffer at `out`
    of the arguments and the arguments as launched. -/
theorem run : θ_run defs (onTc (τ := τ) (main (F := Ideal))) ⟨m, fun _ => 0, ρ⟩ (fun r => ∀ c : Dev nD,
      r.2.mem ((c.tc : Thread nD τ).loc main_v34) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩)
    (Cert.KernelIdeal.FoldRun.run_result m ρ)

end Cert.KernelIdeal.KernelValue

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibLinear.lean ====
/-
  A linear layer read at an index, on both sides.

  The kernel computes a block's product with the weights on the matrix unit into a zero accumulator and adds the bias
  kept as a row `[1, N]`; the host computes the whole array's `dot_general` and adds the bias `[N]` spread twice. At
  the extended reals both are, at `(p, q)`, the sum over the contracted axis of the products plus the bias of column
  `q`: the same finite sum, so a tiling of the rows changes nothing.
-/
import Idealize.ShloMosaic.PureOps.Ideal.Laws
import Idealize.ShloMosaic.Lib.ValueIdx
import Idealize.ShloMosaic.Lib.ValueLayout
import Idealize.ShloMosaic.Lib.Pipeline.Value
import proofs.«176087_j88424786690458_2_alg».proof.Proof.LibDot
import proofs.«176087_j88424786690458_2_alg».proof.Proof.LibColumn

open scoped BigOperators

noncomputable section

namespace Cert.LibLinear

open Idealize.ShloMosaic Idealize.ShloMosaic.ValueIdx

variable {M K N : ℕ}

/-- A kernel's linear layer on a block: the product of the block `x` and the weights `w` (both narrowed to bf16 on the
    way in, which changes nothing at the extended reals) into a zero accumulator, plus the bias row spread over the
    rows. At `(p, q)` it is `∑ k, x (p, k) · w (k, q) + b (0, q)`. -/
theorem kernel_linear_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨2, ![1, N]⟩ .f32)
    (hx : FTy.bf16.bits < FTy.f32.bits) (c : (⟨2, ![1, N]⟩ : Shape).ShapeCasts ⟨2, ![1, N]⟩)
    (bc : (⟨2, ![1, N]⟩ : Shape).Broadcasts ⟨2, ![M, N]⟩) (p : Fin M) (q : Fin N) :
    addf (matmul D none (truncf .bf16 x hx) (truncf .bf16 w hx) (constant ⟨2, ![M, N]⟩ .f32 0x00000000#32))
        (broadcastTo ⟨2, ![M, N]⟩ (shapeCast ⟨2, ![1, N]⟩ b c) bc) (ix2 p q)
      = (∑ k : Fin K, x (ix2 p k) * w (ix2 k q)) + b (ix2 (0 : Fin 1) q) := by
  rw [addf_apply, broadcastTo_1b_ab_apply, shapeCast_self]
  refine congrArg (· + b (ix2 (0 : Fin 1) q)) ?_
  refine (Ideal.matmul_constant_zero_apply D none _ _ (ix2 p q)).trans ?_
  exact PlainDot.sum_eq D h1 h2 h3 h4 h5 h6 (fun i => x i) (fun i => w i) p q

/-- The host's linear layer on the whole array: the `dot_general` of `x` and `w` plus the bias `[N]` spread to
    `[1, N]` and then over the rows. At `(p, q)` it is `∑ k, x (p, k) · w (k, q) + b q`. -/
theorem host_linear_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) (p : Fin M) (q : Fin N) :
    addf (Host.dotGeneral D none x w)
        (broadcastInDim ⟨2, ![M, N]⟩ ![0, 1] hb2 (broadcastInDim ⟨2, ![1, N]⟩ ![1] hb1 b)) (ix2 p q)
      = (∑ k : Fin K, x (ix2 p k) * w (ix2 k q)) + b (ix1 q) := by
  rw [addf_apply, Cert.LibColumn.broadcastInDim_1b_ab_apply, Cert.LibColumn.broadcastInDim_b_1b_apply]
  refine congrArg (· + b (ix1 q)) ?_
  refine (Ideal.dotGeneral_apply D none .single x w (ix2 p q)).trans ?_
  exact PlainDot.sum_eq D h1 h2 h3 h4 h5 h6 x w p q

end Cert.LibLinear

end
-- ==== Proof.ReferenceLayers.lean ====
/-
  The reference's layers are the specification's layers.

  The reference computes a layer on the whole array: the `dot_general` of the activations and the weights, plus the
  bias `[N]` spread to `[1, N]` and then over the rows, and, for a clipped layer, the maximum with zeros spread from a
  rank-0 constant. Entry by entry this is the sum over the shared axis of the products plus the bias of the column,
  clipped at zero or not: the specification's `clipped` and `plain`.
-/
import proofs.«176087_j88424786690458_2_alg».proof.Proof.GinSpec
import proofs.«176087_j88424786690458_2_alg».proof.Proof.LibLinear

open scoped BigOperators

noncomputable section

namespace Cert.Gin.HostLayer

open Idealize.ShloMosaic Idealize.ShloMosaic.ValueIdx

variable {M K N : ℕ}

/-- The host's clipped layer, as an array, is the specification's. -/
theorem clipped_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![]) :
    maximumf (addf (Host.dotGeneral D none x w)
        (broadcastInDim ⟨2, ![M, N]⟩ ![0, 1] hb2 (broadcastInDim ⟨2, ![1, N]⟩ ![1] hb1 b)))
      (broadcastInDim ⟨2, ![M, N]⟩ ![] hz (constant (F := Ideal) ⟨0, ![]⟩ .f32 0x00000000#32))
      = Cert.Gin.clipped x w (fun q : Fin N => b (ix1 q)) := by
  funext i
  obtain ⟨p, q, rfl⟩ : ∃ (p : Fin M) (q : Fin N), i = ix2 p q := ⟨i 0, i 1, eq_ix2 i⟩
  rw [maximumf_apply, Cert.Gin.clipped_ix2, Cert.LibColumn.broadcastInDim_scalar_apply, constant_apply]
  exact congrArg (max · Cert.Gin.zero) (Cert.LibLinear.host_linear_apply D h1 h2 h3 h4 h5 h6 x w b hb1 hb2 p q)

/-- The host's layer without clipping, as an array, is the specification's. -/
theorem plain_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (Host.dotGeneral D none x w)
        (broadcastInDim ⟨2, ![M, N]⟩ ![0, 1] hb2 (broadcastInDim ⟨2, ![1, N]⟩ ![1] hb1 b))
      = Cert.Gin.plain x w (fun q : Fin N => b (ix1 q)) := by
  funext i
  obtain ⟨p, q, rfl⟩ : ∃ (p : Fin M) (q : Fin N), i = ix2 p q := ⟨i 0, i 1, eq_ix2 i⟩
  rw [Cert.Gin.plain_ix2]
  exact Cert.LibLinear.host_linear_apply D h1 h2 h3 h4 h5 h6 x w b hb1 hb2 p q

end Cert.Gin.HostLayer

end
-- ==== Proof.ReferenceValue.lean ====
/-
  The reference's result as a function of its arguments.

  Stage by stage: the first two layers, each a `dot_general` plus a spread bias clipped at zero, applied to the node
  features plus their neighbour sums, are the first convolution; the next layer clipped and the last left as it is,
  applied to the first convolution's output plus its neighbour sums, are the second. The neighbour sums (a gather
  along the wrapped source entries, then a sum into the rows the destination entries name) are named and not opened.
-/
import proofs.«176087_j88424786690458_2_alg».proof.Proof.Gen.ReferenceIdeal.Read
import proofs.«176087_j88424786690458_2_alg».proof.Proof.ReferenceLayers
import proofs.«176087_j88424786690458_2_alg».proof.Proof.Network

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The neighbour sums of a `[100000, 64]` array along the edge list `e`. -/
def neighbourSum64 (h : (⟨S100000x64, .f32⟩ : BufTy).Contents (Elt Ideal)) (e : (⟨S2x1600000, .i32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v11 (F := Ideal)) (val_main_v12 (F := Ideal) e)
    (Host.gather gather_S100000x64_S1600000x1_S1600000x64_1_0_n_n_0_1_164 h (val_main_v9 (F := Ideal) e))

/-- The neighbour sums of a `[100000, 128]` array along the edge list `e`. -/
def neighbourSum128 (h : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v32 (F := Ideal)) (val_main_v33 (F := Ideal) e)
    (Host.gather gather_S100000x128_S1600000x1_S1600000x128_1_0_n_n_0_1_1128 h (val_main_v30 (F := Ideal) e))

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-- The reference's first convolution. -/
theorem first_conv :
    val_main_v24 (F := Ideal) x0 x1 x2 x3 x4 x5
      = Cert.Gin.conv1 (N := 100000) (A := 64) (B := 128) (C := 128) (neighbourSum64 x0 x1) x0 x2
          (fun k : Fin 128 => x3 (ix1 k)) x4 (fun k : Fin 128 => x5 (ix1 k)) := by
  unfold val_main_v24 val_main_v23 val_main_v22 val_main_v21 val_main_v20 val_main_call1_v0 val_main_call1_cst
  refine (Cert.Gin.HostLayer.clipped_eq dot_S100000x128_S128x128_S100000x128_1_0_0_1_n_n rfl rfl rfl rfl rfl rfl
    _ x4 x5 bcast_S128_S1x128_1 bcast_S1x128_S100000x128_0_1 bcast_S_S100000x128).trans ?_
  unfold Cert.Gin.conv1
  refine congrArg (fun z => Cert.Gin.clipped z x4 (fun k : Fin 128 => x5 (ix1 k))) ?_
  unfold val_main_v19 val_main_v18 val_main_v17 val_main_v16 val_main_v15 val_main_call0_v0 val_main_call0_cst
  refine (Cert.Gin.HostLayer.clipped_eq dot_S100000x64_S64x128_S100000x128_1_0_0_1_n_n rfl rfl rfl rfl rfl rfl
    _ x2 x3 bcast_S128_S1x128_1 bcast_S1x128_S100000x128_0_1 bcast_S_S100000x128).trans ?_
  refine congrArg (fun z => Cert.Gin.clipped z x2 (fun k : Fin 128 => x3 (ix1 k))) ?_
  unfold val_main_v14 val_main_v13 val_main_v10 neighbourSum64 Cert.Gin.plus
  rfl

/-- The reference's second convolution, over its first. -/
theorem second_conv :
    val_main_v44 (F := Ideal) x0 x1 x2 x3 x4 x5 x6 x7 x8 x9
      = Cert.Gin.conv2 (N := 100000) (A := 128) (B := 128) (C := 64)
          (neighbourSum128 (val_main_v24 (F := Ideal) x0 x1 x2 x3 x4 x5) x1) (val_main_v24 (F := Ideal) x0 x1 x2 x3 x4 x5) x6
          (fun k : Fin 128 => x7 (ix1 k)) x8 (fun k : Fin 64 => x9 (ix1 k)) := by
  unfold val_main_v44 val_main_v43 val_main_v42 val_main_v41
  refine (Cert.Gin.HostLayer.plain_eq dot_S100000x128_S128x64_S100000x64_1_0_0_1_n_n rfl rfl rfl rfl rfl rfl
    _ x8 x9 bcast_S64_S1x64_1 bcast_S1x64_S100000x64_0_1).trans ?_
  unfold Cert.Gin.conv2
  refine congrArg (fun z => Cert.Gin.plain z x8 (fun k : Fin 64 => x9 (ix1 k))) ?_
  unfold val_main_v40 val_main_v39 val_main_v38 val_main_v37 val_main_v36 val_main_call2_v0 val_main_call2_cst
  refine (Cert.Gin.HostLayer.clipped_eq dot_S100000x128_S128x128_S100000x128_1_0_0_1_n_n rfl rfl rfl rfl rfl rfl
    _ x6 x7 bcast_S128_S1x128_1 bcast_S1x128_S100000x128_0_1 bcast_S_S100000x128).trans ?_
  refine congrArg (fun z => Cert.Gin.clipped z x6 (fun k : Fin 128 => x7 (ix1 k))) ?_
  unfold val_main_v35 val_main_v34 val_main_v31 neighbourSum128 Cert.Gin.plus
  rfl

/-- The reference's result is the network of its arguments. -/
theorem result_eq (m : (ℓ : Loc nD τ sig) → Buf (Elt Ideal) ℓ) (c : Dev nD) :
    Cert.ReferenceIdeal.Value.res_main_v44 m c
      = Cert.Gin.network (N := 100000) (A := 64) (B := 128) (C := 128) (D := 128) (E := 64)
          (fun h => neighbourSum64 h (m ((c.tc : Thread nD τ).loc main_arg1)))
          (fun h => neighbourSum128 h (m ((c.tc : Thread nD τ).loc main_arg1)))
          (m ((c.tc : Thread nD τ).loc main_arg0)) (m ((c.tc : Thread nD τ).loc main_arg2))
          (fun k : Fin 128 => m ((c.tc : Thread nD τ).loc main_arg3) (ix1 k)) (m ((c.tc : Thread nD τ).loc main_arg4))
          (fun k : Fin 128 => m ((c.tc : Thread nD τ).loc main_arg5) (ix1 k)) (m ((c.tc : Thread nD τ).loc main_arg6))
          (fun k : Fin 128 => m ((c.tc : Thread nD τ).loc main_arg7) (ix1 k)) (m ((c.tc : Thread nD τ).loc main_arg8))
          (fun k : Fin 64 => m ((c.tc : Thread nD τ).loc main_arg9) (ix1 k)) := by
  refine (val_main_v44_eq (F := Ideal) m c).trans ?_
  refine (second_conv _ _ _ _ _ _ _ _ _ _).trans ?_
  rw [first_conv]
  rfl

end Cert.ReferenceIdeal.RefValue

end
-- ==== Proof.lean ====
/-
  A two-convolution graph network: a kernel program against its reference, on the extended reals.

  Both programs take node features `x : [100000, 64]`, an edge list `[2, 1600000]` and the weights and biases of two
  two-layer perceptrons. A convolution adds to every node's features the sum of its in-neighbours' features (a gather
  along the source row of the edge list, then a sum into the rows the destination row names) and sends each row
  through a perceptron; the first convolution's output is clipped at zero and fed to the second.

  The reference does all of this on whole arrays. The kernel program forms the neighbour sums with the same host
  operations and runs each perceptron as a kernel over 25 blocks of 4000 rows, with bf16 weights, bf16 matrix-unit
  operands, the biases kept as rows and the first output stored in bf16. On the extended reals a change of format is
  the identity and a product into a zero accumulator is the plain sum of products; every entry of a layer depends on
  one row of its input, so the blocks a kernel writes back are the blocks of the whole-array layer, and they tile the
  array. Hence both programs end with the same function of the arguments, the network of `Proof/Network.lean`; no
  law beyond the congruence of sums is used, and the precondition is never opened.

  The three frames are the generated ones (the reference's is its generated run with the result dropped), and the
  idealization rewrote nothing, so its statement is `True`.
-/
import proofs.«176087_j88424786690458_2_alg».proof.Defs
import proofs.«176087_j88424786690458_2_alg».proof.Proof.Gen.Kernel
import proofs.«176087_j88424786690458_2_alg».proof.Proof.Gen.Kernel.Skeleton
import proofs.«176087_j88424786690458_2_alg».proof.Proof.Gen.Kernel.Launch
import proofs.«176087_j88424786690458_2_alg».proof.Proof.Gen.Kernel.Points
import proofs.«176087_j88424786690458_2_alg».proof.Proof.Gen.Kernel.Frame
import proofs.«176087_j88424786690458_2_alg».proof.Proof.Gen.KernelIdeal
import proofs.«176087_j88424786690458_2_alg».proof.Proof.Gen.KernelIdeal.Skeleton
import proofs.«176087_j88424786690458_2_alg».proof.Proof.Gen.KernelIdeal.Launch
import proofs.«176087_j88424786690458_2_alg».proof.Proof.Gen.KernelIdeal.Points
import proofs.«176087_j88424786690458_2_alg».proof.Proof.Gen.KernelIdeal.Frame
import proofs.«176087_j88424786690458_2_alg».proof.Proof.Gen.ReferenceIdeal
import proofs.«176087_j88424786690458_2_alg».proof.Proof.Gen.Pre_finite_inputs
import proofs.«176087_j88424786690458_2_alg».proof.Proof.Gen.ReferenceIdeal.Run
import proofs.«176087_j88424786690458_2_alg».proof.Proof.Gen.ReferenceIdeal.Read
import proofs.«176087_j88424786690458_2_alg».proof.Proof.KernelValue
import proofs.«176087_j88424786690458_2_alg».proof.Proof.ReferenceValue
import Idealize.ShloMosaic.Adequacy
import Idealize.ShloMosaic.Init

set_option maxRecDepth 16384

noncomputable section

namespace Cert.Proof

open Idealize.ShloMosaic Idealize.ShloMosaic.ValueIdx Idealize.SL.Sem

/-- The kernel program's result is the network of its arguments in the reference's spelling: a narrowing is the
    identity, a bias re-cast as a row and read at `(0, k)` is the bias at `k`, and the two programs' neighbour sums are
    the same operations on the same operands. -/
theorem kernel_out_eq (m : (ℓ : Loc Cert.KernelIdeal.nD Cert.KernelIdeal.τ Cert.KernelIdeal.sig) → Buf (Elt Ideal) ℓ)
    (c : Dev Cert.KernelIdeal.nD) :
    Cert.KernelIdeal.KernelValue.out m c
      = Cert.Gin.network (N := 100000) (A := 64) (B := 128) (C := 128) (D := 128) (E := 64)
          (fun h => Cert.ReferenceIdeal.RefValue.neighbourSum64 h (m ((c.tc : Thread Cert.KernelIdeal.nD Cert.KernelIdeal.τ).loc Cert.KernelIdeal.main_arg1)))
          (fun h => Cert.ReferenceIdeal.RefValue.neighbourSum128 h (m ((c.tc : Thread Cert.KernelIdeal.nD Cert.KernelIdeal.τ).loc Cert.KernelIdeal.main_arg1)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg2))
          (fun k : Fin 128 => (m ((c.tc : Thread Cert.KernelIdeal.nD Cert.KernelIdeal.τ).loc Cert.KernelIdeal.main_arg3)) (ix1 k)) (m ((c.tc : Thread Cert.KernelIdeal.nD Cert.KernelIdeal.τ).loc Cert.KernelIdeal.main_arg4))
          (fun k : Fin 128 => (m ((c.tc : Thread Cert.KernelIdeal.nD Cert.KernelIdeal.τ).loc Cert.KernelIdeal.main_arg5)) (ix1 k)) (m ((c.tc : Thread Cert.KernelIdeal.nD Cert.KernelIdeal.τ).loc Cert.KernelIdeal.main_arg6))
          (fun k : Fin 128 => (m ((c.tc : Thread Cert.KernelIdeal.nD Cert.KernelIdeal.τ).loc Cert.KernelIdeal.main_arg7)) (ix1 k)) (m ((c.tc : Thread Cert.KernelIdeal.nD Cert.KernelIdeal.τ).loc Cert.KernelIdeal.main_arg8))
          (fun k : Fin 64 => (m ((c.tc : Thread Cert.KernelIdeal.nD Cert.KernelIdeal.τ).loc Cert.KernelIdeal.main_arg9)) (ix1 k)) := by
  unfold Cert.KernelIdeal.KernelValue.out Cert.KernelIdeal.KernelValue.firstOut Cert.Gin.network
  simp only [shapeCast_a_1a_apply]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of the arguments in the result buffer. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.result_eq m' c, h0, h1, h2, h3, h4, h5, h6, h7, h8, h9]
  exact (kernel_out_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
